-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 96
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S_, .f32⟩
  | .hbm, ⟨82, _⟩ => ⟨S800000, .f32⟩
  | .hbm, ⟨83, _⟩ => ⟨S_, .f32⟩
  | .hbm, ⟨84, _⟩ => ⟨S50000, .f32⟩
  | .hbm, ⟨85, _⟩ => ⟨S800000x1, .i32⟩
  | .hbm, ⟨86, _⟩ => ⟨S50000, .f32⟩
  | .hbm, ⟨87, _⟩ => ⟨S_, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x64, .f32⟩
  | .hbm, ⟨95, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_15 : Ref sig .tc := ⟨.hbm, 87, rfl⟩
abbrev main_call2_v0 : Ref sig .tc := ⟨.hbm, 88, rfl⟩
abbrev main_call2_v1 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S_, .f32⟩
  | .hbm, ⟨96, _⟩ => ⟨S800000, .f32⟩
  | .hbm, ⟨97, _⟩ => ⟨S_, .f32⟩
  | .hbm, ⟨98, _⟩ => ⟨S50000, .f32⟩
  | .hbm, ⟨99, _⟩ => ⟨S800000x1, .i32⟩
  | .hbm, ⟨100, _⟩ => ⟨S50000, .f32⟩
  | .hbm, ⟨101, _⟩ => ⟨S_, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call3_cst : Ref sig .tc := ⟨.hbm, 79, rfl⟩
abbrev main_call3_v0 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_call4_v0 : Ref sig .tc := ⟨.hbm, 102, rfl⟩
abbrev main_call4_v1 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel's run with its result named.

  The program is three kernel launches among stretches of host operations. Its run is followed boundary by boundary: after a
  stretch every buffer holds what the stretch's operations compute from the contents before it, after a launch the launch's
  output array holds what its grid points wrote back and every other buffer is as the launch found it. The last boundary's
  contents therefore name what the result buffer holds when the program returns, and every argument buffer is read back
  through the boundaries to its contents at launch. This module states that run: every weakly fair execution terminates,
  nothing faults, the result buffer ends at the last boundary's contents and the twelve arguments end as launched. What the
  last boundary's contents ARE, as a function of the arguments, is the business of the modules that follow.
-/
import proofs.«120581_j43671227466151_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the last
    boundary names for it, and each argument buffer as launched. -/
theorem run_named : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.ValueRun

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibTwoProducts.lean ====
/-
  Two matrix products and a bias row, read at one entry.

  A dense layer of the form  x₁ · w₁ + x₂ · w₂ + b  is spelt by a kernel as two matrix-unit products, each of operands
  rounded to a narrower float format and each accumulated into a zero array, added to one another and to the bias row
  broadcast over all rows. Over the extended reals a change of float format is the identity and the products are exact, so
  the entry (p, q) of the result is
      (∑ k, x₁[p, k] · w₁[k, q]) + (∑ k, x₂[p, k] · w₂[k, q]) + b[0, q].
  The statement is generic in the three extents (rows n, contracted extent K, columns H), in the record D that spells the
  plain product's dimension numbers, and in the proofs of the side conditions the operations carry. The bias row goes
  through a cast to its own shape before it is broadcast. The forms in which one or both left operands also go through a
  cast to their own shape follow, since such a cast is the identity.
-/
import Idealize.ShloMosaic.Lib.ValueLayout
import proofs.«120581_j43671227466151_1_alg».proof.Proof.LibDotCols

noncomputable section

open scoped BigOperators

namespace TwoProducts

open Idealize.ShloMosaic Idealize.ShloMosaic.ValueIdx

variable {n K H : Nat}

/-- A bias row cast to its own shape and broadcast over the rows reads, at (p, q), the row's entry q. -/
theorem bias_row_apply {α : Type} (brow : (⟨2, ![1, H]⟩ : Shape).Idx → α)
    (hc : (⟨2, ![1, H]⟩ : Shape).ShapeCasts ⟨2, ![1, H]⟩) (hb : (⟨2, ![1, H]⟩ : Shape).Broadcasts ⟨2, ![n, H]⟩)
    (p : Fin n) (q : Fin H) :
    broadcastTo ⟨2, ![n, H]⟩ (shapeCast ⟨2, ![1, H]⟩ brow hc) hb (ix2 p q) = brow (ix2 (0 : Fin 1) q) := by
  rw [broadcastTo_1b_ab_apply, shapeCast_self]

/-- One product of operands rounded to a narrower format, into the zero array, at an entry: the exact sum of products. -/
theorem rounded_product_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (x : FVec Ideal ⟨2, ![n, K]⟩ .f32) (w : FVec Ideal ⟨2, ![K, H]⟩ .f32) (p : Fin n) (q : Fin H) :
    matmul D prec (truncf ψ x hψ) (truncf ψ w hψ) (constant ⟨2, ![n, H]⟩ .f32 0x00000000#32) (ix2 p q)
      = ∑ k : Fin K, x (ix2 p k) * w (ix2 k q) :=
  (Cert.Lib.DotCols.matmul_cols_apply D hD prec (truncf ψ x hψ) (truncf ψ w hψ) p q).trans
    (Finset.sum_congr rfl fun _ _ => rfl)

/-- TWO PRODUCTS AND A BIAS ROW AT AN ENTRY (left operands as they are). -/
theorem two_products_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ x1 hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [addf_apply, addf_apply, rounded_product_apply D hD, rounded_product_apply D hD, bias_row_apply]

/-- The same with the FIRST left operand cast to its own shape. -/
theorem two_products_cast_first_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx]
  exact two_products_apply D hD prec hψ hc hb x1 x2 w1 w2 brow p q

/-- The same with BOTH left operands cast to their own shape. -/
theorem two_products_cast_both_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ (shapeCast ⟨2, ![n, K]⟩ x2 hx) hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx, shapeCast_self x2 hx]
  exact two_products_apply D hD prec hψ hc hb x1 x2 w1 w2 brow p q

end TwoProducts

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«120581_j43671227466151_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.DenseEntry.lean ====
/-
  One layer of the network, entry by entry, over the extended reals.

  A layer takes the node features `h` (n rows of K numbers), the averaged neighbour features `hn` (same shape), two weight
  matrices `ws`, `wn` (K by H) and a bias row `brow` (1 by H), and returns the n-by-H array whose entry (p, q) is

      (∑ k, h[p, k] · ws[k, q]) + (∑ k, hn[p, k] · wn[k, q]) + brow[0, q],

  followed, in the hidden layers, by the maximum with zero. Over the extended reals a change of float format is the identity
  and a matrix product into a zero accumulator is the exact sum of products, so this one formula reads both spellings: the
  one that rounds the operands to a narrower format and multiplies them on the matrix unit, a row tile at a time, and the one
  that applies `dot_general` to the whole arrays. Nothing here needs the entries to be finite: the two spellings are the same
  sums of the same products, added in the same order.
-/
import Idealize.ShloMosaic.Lib.ValueLayout
import Idealize.ShloMosaic.Lib.KernelVsHost
import Idealize.ShloMosaic.Lib.IdealHost
import proofs.«120581_j43671227466151_1_alg».proof.Proof.LibTwoProducts
import proofs.«120581_j43671227466151_1_alg».proof.Proof.LibDotColsHost

noncomputable section

open scoped BigOperators

namespace Cert.SageDense

open Idealize.ShloMosaic Idealize.ShloMosaic.ValueIdx

variable {n K H : Nat}

/-- The layer before its activation, at entry (p, q). -/
def affineAt (h hn : FVec Ideal ⟨2, ![n, K]⟩ .f32) (ws wn : FVec Ideal ⟨2, ![K, H]⟩ .f32)
    (brow : FVec Ideal ⟨2, ![1, H]⟩ .f32) (p : Fin n) (q : Fin H) : Ideal .f32 :=
  (∑ k : Fin K, h (ix2 p k) * ws (ix2 k q)) + (∑ k : Fin K, hn (ix2 p k) * wn (ix2 k q)) + brow (ix2 (0 : Fin 1) q)

/-- The float zero. -/
abbrev zero : Ideal .f32 := Ideal.ofBits .f32 0x00000000#32

/-- The layer as an array: the affine part, then (when `act`) the maximum with zero. -/
def layer (act : Bool) (h hn : FVec Ideal ⟨2, ![n, K]⟩ .f32) (ws wn : FVec Ideal ⟨2, ![K, H]⟩ .f32)
    (brow : FVec Ideal ⟨2, ![1, H]⟩ .f32) : FVec Ideal ⟨2, ![n, H]⟩ .f32 :=
  fun i => if act then max (affineAt h hn ws wn brow (i 0 : Fin n) (i 1 : Fin H)) zero
           else affineAt h hn ws wn brow (i 0 : Fin n) (i 1 : Fin H)

theorem layer_apply (act : Bool) (h hn : FVec Ideal ⟨2, ![n, K]⟩ .f32) (ws wn : FVec Ideal ⟨2, ![K, H]⟩ .f32)
    (brow : FVec Ideal ⟨2, ![1, H]⟩ .f32) (p : Fin n) (q : Fin H) :
    layer act h hn ws wn brow (ix2 p q)
      = if act then max (affineAt h hn ws wn brow p q) zero else affineAt h hn ws wn brow p q := rfl

/-! ## The spelling on the matrix unit -/

/-- Two products of rounded operands into zero accumulators, added, plus the bias row laid along the rows: the affine part. -/
theorem unit_affine_apply {ψ : FTy} (D : DotDims ⟨2, ![n, K]⟩ ⟨2, ![K, H]⟩ ⟨2, ![n, H]⟩) (hD : D = DotDims.plain n K H)
    (hψ : ψ.bits < FTy.f32.bits)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D none (truncf ψ x1 hψ) (truncf ψ w1 hψ) (constant ⟨2, ![n, H]⟩ .f32 0x00000000#32))
               (matmul D none (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = affineAt x1 x2 w1 w2 brow p q :=
  TwoProducts.two_products_apply D hD none hψ hc hb x1 x2 w1 w2 brow p q

/-- The same followed by the maximum with a broadcast zero: the hidden layers' entry. -/
theorem unit_relu_apply {ψ : FTy} (D : DotDims ⟨2, ![n, K]⟩ ⟨2, ![K, H]⟩ ⟨2, ![n, H]⟩) (hD : D = DotDims.plain n K H)
    (hψ : ψ.bits < FTy.f32.bits)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    maximumf
      (addf (addf (matmul D none (truncf ψ x1 hψ) (truncf ψ w1 hψ) (constant ⟨2, ![n, H]⟩ .f32 0x00000000#32))
                 (matmul D none (truncf ψ x2 hψ) (truncf ψ w2 hψ) (constant ⟨2, ![n, H]⟩ .f32 0x00000000#32)))
           (broadcastTo ⟨2, ![n, H]⟩ (shapeCast ⟨2, ![1, H]⟩ brow hc) hb))
      (broadcast ⟨2, ![n, H]⟩ (Scalar.ofBits (F := Ideal) .f32 0x00000000#32)) (ix2 p q)
      = max (affineAt x1 x2 w1 w2 brow p q) zero := by
  rw [maximumf_apply, unit_affine_apply D hD hψ hc hb]
  rfl

/-! ## The spelling on whole arrays -/

/-- Two `dot_general`s added, plus the bias row laid along the rows by `broadcast_in_dim`: the affine part. -/
theorem host_affine_apply (D : DotDims ⟨2, ![n, K]⟩ ⟨2, ![K, H]⟩ ⟨2, ![n, H]⟩) (hD : D = DotDims.plain n K H)
    (hb : (⟨2, ![1, H]⟩ : Shape).BroadcastsInDim ⟨2, ![n, H]⟩ ![0, 1])
    (h hn : FVec Ideal ⟨2, ![n, K]⟩ .f32) (ws wn : FVec Ideal ⟨2, ![K, H]⟩ .f32) (brow : FVec Ideal ⟨2, ![1, H]⟩ .f32)
    (p : Fin n) (q : Fin H) :
    addf (addf (Host.dotGeneral D none h ws) (Host.dotGeneral D none hn wn))
         (broadcastInDim ⟨2, ![n, H]⟩ ![0, 1] hb brow) (ix2 p q)
      = affineAt h hn ws wn brow p q := by
  show (FloatOps.dotGeneral D none .single h ws (ix2 p q) + FloatOps.dotGeneral D none .single hn wn (ix2 p q))
        + broadcastInDim ⟨2, ![n, H]⟩ ![0, 1] hb brow (ix2 p q) = _
  rw [Cert.Lib.DotColsHost.dotGeneral_cols_apply D hD, Cert.Lib.DotColsHost.dotGeneral_cols_apply D hD,
    broadcastInDim_oneRow_apply]
  rfl

/-- The maximum with a zero scalar broadcast to the whole shape, at an entry. -/
theorem host_relu_apply (h0 : (⟨0, ![]⟩ : Shape).BroadcastsInDim ⟨2, ![n, H]⟩ ![])
    (x : FVec Ideal ⟨2, ![n, H]⟩ .f32) (i : (⟨2, ![n, H]⟩ : Shape).Idx) :
    maximumf x (broadcastInDim ⟨2, ![n, H]⟩ ![] h0 (constant (F := Ideal) ⟨0, ![]⟩ .f32 0x00000000#32)) i
      = max (x i) zero := by
  rw [maximumf_apply, broadcastInDim_scalar_apply]
  rfl

/-- The whole-array spelling of a hidden layer IS `layer true`. -/
theorem host_layer_relu (D : DotDims ⟨2, ![n, K]⟩ ⟨2, ![K, H]⟩ ⟨2, ![n, H]⟩) (hD : D = DotDims.plain n K H)
    (hb : (⟨2, ![1, H]⟩ : Shape).BroadcastsInDim ⟨2, ![n, H]⟩ ![0, 1])
    (h0 : (⟨0, ![]⟩ : Shape).BroadcastsInDim ⟨2, ![n, H]⟩ ![])
    (h hn : FVec Ideal ⟨2, ![n, K]⟩ .f32) (ws wn : FVec Ideal ⟨2, ![K, H]⟩ .f32) (brow : FVec Ideal ⟨2, ![1, H]⟩ .f32) :
    maximumf (addf (addf (Host.dotGeneral D none h ws) (Host.dotGeneral D none hn wn))
                   (broadcastInDim ⟨2, ![n, H]⟩ ![0, 1] hb brow))
             (broadcastInDim ⟨2, ![n, H]⟩ ![] h0 (constant (F := Ideal) ⟨0, ![]⟩ .f32 0x00000000#32))
      = layer true h hn ws wn brow := by
  funext i
  obtain ⟨p, q, rfl⟩ : ∃ (p : Fin n) (q : Fin H), i = ix2 p q := ⟨i 0, i 1, eq_ix2 i⟩
  rw [host_relu_apply, host_affine_apply D hD hb, layer_apply]
  rfl

/-- The whole-array spelling of the last layer IS `layer false`. -/
theorem host_layer_plain (D : DotDims ⟨2, ![n, K]⟩ ⟨2, ![K, H]⟩ ⟨2, ![n, H]⟩) (hD : D = DotDims.plain n K H)
    (hb : (⟨2, ![1, H]⟩ : Shape).BroadcastsInDim ⟨2, ![n, H]⟩ ![0, 1])
    (h hn : FVec Ideal ⟨2, ![n, K]⟩ .f32) (ws wn : FVec Ideal ⟨2, ![K, H]⟩ .f32) (brow : FVec Ideal ⟨2, ![1, H]⟩ .f32) :
    addf (addf (Host.dotGeneral D none h ws) (Host.dotGeneral D none hn wn))
         (broadcastInDim ⟨2, ![n, H]⟩ ![0, 1] hb brow)
      = layer false h hn ws wn brow := by
  funext i
  obtain ⟨p, q, rfl⟩ : ∃ (p : Fin n) (q : Fin H), i = ix2 p q := ⟨i 0, i 1, eq_ix2 i⟩
  rw [host_affine_apply D hD hb, layer_apply]
  rfl

/-! ## The bias as a row -/

/-- A bias vector made a one-row matrix by a reshape, and by a broadcast along axis 1: the same row. -/
theorem row_forms (b : FVec Ideal ⟨1, ![H]⟩ .f32) (hc : (⟨1, ![H]⟩ : Shape).ShapeCasts ⟨2, ![1, H]⟩)
    (hd : (⟨1, ![H]⟩ : Shape).BroadcastsInDim ⟨2, ![1, H]⟩ ![1]) :
    shapeCast ⟨2, ![1, H]⟩ b hc = broadcastInDim ⟨2, ![1, H]⟩ ![1] hd b := by
  funext i
  obtain ⟨u, q, rfl⟩ : ∃ (u : Fin 1) (q : Fin H), i = ix2 u q := ⟨i 0, i 1, eq_ix2 i⟩
  rw [shapeCast_a_1a_apply]
  refine (broadcastInDim_apply ![1] hd b (ix2 u q) (ix1 q) ?_).symm
  intro a
  match a with
  | ⟨0, _⟩ =>
    show q.val = if H = 1 then 0 else q.val
    split
    · have := q.isLt; omega
    · rfl

/-! ## A row tile of the layer -/

/-- The entry of a row tile depends on the tile's rows of `h` and `hn` only: if the tile's row p is the arrays' row r,
    the tile's entry (p, q) is the arrays' entry (r, q). -/
theorem affineAt_tile {n' : Nat} (x1 x2 : FVec Ideal ⟨2, ![n', K]⟩ .f32) (h hn : FVec Ideal ⟨2, ![n, K]⟩ .f32)
    (ws wn : FVec Ideal ⟨2, ![K, H]⟩ .f32) (brow : FVec Ideal ⟨2, ![1, H]⟩ .f32) (p : Fin n') (r : Fin n) (q : Fin H)
    (e1 : ∀ k : Fin K, x1 (ix2 p k) = h (ix2 r k)) (e2 : ∀ k : Fin K, x2 (ix2 p k) = hn (ix2 r k)) :
    affineAt x1 x2 ws wn brow p q = affineAt h hn ws wn brow r q := by
  unfold affineAt
  simp only [e1, e2]

end Cert.SageDense

end
-- ==== Proof.Layer0.lean ====
/-
  The first layer's launch: what its output array holds when the launch is over.

  The launch cuts the 50000 rows into ten tiles of 5000. At tile t the body reads rows 5000·t … 5000·t + 4999 of the node
  features and of the averaged neighbour features, the two whole weight matrices and the whole bias row, and writes the
  tile's rows of the output: entry (p, q) of the tile is the layer's entry (5000·t + p, q), because an entry of the layer
  depends on its own row of the two feature arrays only. The ten tiles cover every row, so the output array ends as the
  layer of the arrays the launch found, whatever those are.
-/
import proofs.«120581_j43671227466151_1_alg».proof.Proof.Gen.KernelIdeal.Frame
import proofs.«120581_j43671227466151_1_alg».proof.Proof.DenseEntry
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.SageDense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The launch's products contract the left operand's columns with the right operand's rows. -/
theorem dims_plain :
    (dot_S5000x128_S128x128_S5000x128_1_0_0_1_n_n : DotDims S5000x128 S128x128 S5000x128) = DotDims.plain 5000 128 128 := rfl

/-- The body's stored value at entry (p, q) of a tile: the layer's formula on the tile's operands. -/
theorem stored_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q) = max (affineAt x0 x1 x2 x3 x4 p q) zero := by
  unfold k0_pay1
  rw [shapeCast_self x1]
  exact unit_relu_apply dot_S5000x128_S128x128_S5000x128_1_0_0_1_n_n dims_plain _ _ _ x0 x1 x2 x3 x4 p q

/-- The layer of the arrays the launch finds. -/
def result (c : Dev nD) : FVec Ideal S50000x128 .f32 :=
  layer true (V c (Pipeline.arrRef spec0 0) : S50000x128.Idx → Ideal .f32) (V c (Pipeline.arrRef spec0 1))
    (V c (Pipeline.arrRef spec0 2)) (V c (Pipeline.arrRef spec0 3)) (V c (Pipeline.arrRef spec0 4))

/-- The printed index maps over the grid: the row tiles move with the point, the weights and the bias stay. -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A tile's entry is the layer's entry at the tile's place in the arrays. -/
theorem tile_entry (x0 x1 : Vec Ideal S5000x128 .f32) (x2 x3 : Vec Ideal S128x128 .f32) (x4 : Vec Ideal S1x128 .f32)
    (a0 a1 : FVec Ideal S50000x128 .f32) (j : S5000x128.Idx) (i : S50000x128.Idx)
    (e0 : ∀ k : Fin 128, x0 (ix2 (j 0 : Fin 5000) k) = a0 (ix2 (i 0 : Fin 50000) k))
    (e1 : ∀ k : Fin 128, x1 (ix2 (j 0 : Fin 5000) k) = a1 (ix2 (i 0 : Fin 50000) k))
    (eq : (j 1 : Fin 128) = (i 1 : Fin 128)) :
    k0_pay1 x0 x1 x2 x3 x4 j = layer true a0 a1 x2 x3 x4 i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hq : q = s := eq
  subst hq
  rw [stored_apply, layer_apply]
  exact congrArg (fun z => max z zero) (affineAt_tile x0 x1 a0 a1 x2 x3 x4 p r q e0 e1)

/-- WHAT POINT t WRITES BACK is tile t of the layer of the arrays the launch finds. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  obtain ⟨a0, a1, b0, b1, c0, c1, d0, d1, f0, f1, g0, g1⟩ := index_facts t
  have w2 : iblk0 V c 2 t = V c (Pipeline.arrRef spec0 2) := by
    funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have w3 : iblk0 V c 3 t = V c (Pipeline.arrRef spec0 3) := by
    funext y
    show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have w4 : iblk0 V c 4 t = V c (Pipeline.arrRef spec0 4) := by
    funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [w2, w3, w4]
  funext j
  show k0_pay1 (iblk0 V c 0 t) (iblk0 V c 1 t) (V c (Pipeline.arrRef spec0 2)) (V c (Pipeline.arrRef spec0 3))
      (V c (Pipeline.arrRef spec0 4)) j = result V c (((cfg0.win 5).blk t).view.emb j)
  unfold result
  refine tile_entry (iblk0 V c 0 t) (iblk0 V c 1 t) (V c (Pipeline.arrRef spec0 2)) (V c (Pipeline.arrRef spec0 3))
    (V c (Pipeline.arrRef spec0 4)) (V c (Pipeline.arrRef spec0 0)) (V c (Pipeline.arrRef spec0 1)) j
    (((cfg0.win 5).blk t).view.emb j) ?_ ?_ ?_
  · intro k
    show V c (Pipeline.arrRef spec0 0) (((cfg0.win 0).blk t).view.emb (ix2 (j 0 : Fin 5000) k))
      = V c (Pipeline.arrRef spec0 0) (ix2 ((((cfg0.win 5).blk t).view.emb j) 0 : Fin 50000) k)
    refine congrArg _ (funext fun a => Fin.ext ?_)
    match a with
    | ⟨0, _⟩ =>
      show win0_0.index t (0 : Fin 2) * 5000 + 1 * (j 0).val = win0_5.index t (0 : Fin 2) * 5000 + 1 * (j 0).val
      omega
    | ⟨1, _⟩ => show win0_0.index t (1 : Fin 2) * 128 + 1 * k.val = k.val; omega
  · intro k
    show V c (Pipeline.arrRef spec0 1) (((cfg0.win 1).blk t).view.emb (ix2 (j 0 : Fin 5000) k))
      = V c (Pipeline.arrRef spec0 1) (ix2 ((((cfg0.win 5).blk t).view.emb j) 0 : Fin 50000) k)
    refine congrArg _ (funext fun a => Fin.ext ?_)
    match a with
    | ⟨0, _⟩ =>
      show win0_1.index t (0 : Fin 2) * 5000 + 1 * (j 0).val = win0_5.index t (0 : Fin 2) * 5000 + 1 * (j 0).val
      omega
    | ⟨1, _⟩ => show win0_1.index t (1 : Fin 2) * 128 + 1 * k.val = k.val; omega
  · refine Fin.ext ?_
    show (j 1).val = win0_5.index t (1 : Fin 2) * 128 + 1 * (j 1).val
    omega

/-- An index of the output array is in point t's tile iff each coordinate is in the tile's range on its axis. -/
theorem mem_tile (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v19).slice (win0_5.rect t)).set ↔ _
  rw [View.set_slice_whole, Rect.mem_set_unit]
  exact Iff.rfl

/-- Every index of the output array is in the tile of the point its row falls in. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨a0, a1, b0, b1, c0, c1, d0, d1, f0, f1, g0, g1⟩ := index_facts t
  have ht : t.val = (i 0).val / 5000 := rfl
  refine ⟨t, flush0_5 t, ?_⟩
  rw [mem_tile]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE OUTPUT ARRAY after the launch is the layer of the arrays the launch found. -/
theorem final (c : Dev nD) : (dat0 V c).arrAt 5 cfg0.N = result V c :=
  (dat0 V c).arrAt_eq_of_cover 5 (result V c) (fun t _ => flushed_eq V c t) covered

end Cert.KernelIdeal.Layer0

end
-- ==== Proof.Layer1.lean ====
/-
  The second layer's launch: what its output array holds when the launch is over.

  The launch cuts the 50000 rows into ten tiles of 5000. At tile t the body reads rows 5000·t … 5000·t + 4999 of the node
  features and of the averaged neighbour features, the two whole weight matrices and the whole bias row, and writes the
  tile's rows of the output: entry (p, q) of the tile is the layer's entry (5000·t + p, q), because an entry of the layer
  depends on its own row of the two feature arrays only. The ten tiles cover every row, so the output array ends as the
  layer of the arrays the launch found, whatever those are.
-/
import proofs.«120581_j43671227466151_1_alg».proof.Proof.Gen.KernelIdeal.Frame
import proofs.«120581_j43671227466151_1_alg».proof.Proof.DenseEntry
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.SageDense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The launch's products contract the left operand's columns with the right operand's rows. -/
theorem dims_plain :
    (dot_S5000x128_S128x128_S5000x128_1_0_0_1_n_n : DotDims S5000x128 S128x128 S5000x128) = DotDims.plain 5000 128 128 := rfl

/-- The body's stored value at entry (p, q) of a tile: the layer's formula on the tile's operands. -/
theorem stored_apply (x0 x1 : Vec Ideal S5000x128 .f32) (x2 x3 : Vec Ideal S128x128 .f32) (x4 : Vec Ideal S1x128 .f32)
    (p : Fin 5000) (q : Fin 128) :
    k1_pay1 x0 x1 x2 x3 x4 (ix2 p q) = max (affineAt x0 x1 x2 x3 x4 p q) zero := by
  unfold k1_pay1
  rw [shapeCast_self x0, shapeCast_self x1]
  exact unit_relu_apply dot_S5000x128_S128x128_S5000x128_1_0_0_1_n_n dims_plain _ _ _ x0 x1 x2 x3 x4 p q

/-- The layer of the arrays the launch finds. -/
def result (c : Dev nD) : FVec Ideal S50000x128 .f32 :=
  layer true (V c (Pipeline.arrRef spec1 0) : S50000x128.Idx → Ideal .f32) (V c (Pipeline.arrRef spec1 1))
    (V c (Pipeline.arrRef spec1 2)) (V c (Pipeline.arrRef spec1 3)) (V c (Pipeline.arrRef spec1 4))

/-- The printed index maps over the grid: the row tiles move with the point, the weights and the bias stay. -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A tile's entry is the layer's entry at the tile's place in the arrays. -/
theorem tile_entry (x0 x1 : Vec Ideal S5000x128 .f32) (x2 x3 : Vec Ideal S128x128 .f32) (x4 : Vec Ideal S1x128 .f32)
    (a0 a1 : FVec Ideal S50000x128 .f32) (j : S5000x128.Idx) (i : S50000x128.Idx)
    (e0 : ∀ k : Fin 128, x0 (ix2 (j 0 : Fin 5000) k) = a0 (ix2 (i 0 : Fin 50000) k))
    (e1 : ∀ k : Fin 128, x1 (ix2 (j 0 : Fin 5000) k) = a1 (ix2 (i 0 : Fin 50000) k))
    (eq : (j 1 : Fin 128) = (i 1 : Fin 128)) :
    k1_pay1 x0 x1 x2 x3 x4 j = layer true a0 a1 x2 x3 x4 i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hq : q = s := eq
  subst hq
  rw [stored_apply, layer_apply]
  exact congrArg (fun z => max z zero) (affineAt_tile x0 x1 a0 a1 x2 x3 x4 p r q e0 e1)

set_option maxHeartbeats 2000000 in
/-- WHAT POINT t WRITES BACK is tile t of the layer of the arrays the launch finds. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  obtain ⟨a0, a1, b0, b1, c0, c1, d0, d1, f0, f1, g0, g1⟩ := index_facts t
  have w2 : iblk1 V c 2 t = V c (Pipeline.arrRef spec1 2) := by
    funext y
    show V c (Pipeline.arrRef spec1 2) (((cfg1.win 2).blk t).view.emb y) = V c (Pipeline.arrRef spec1 2) y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have w3 : iblk1 V c 3 t = V c (Pipeline.arrRef spec1 3) := by
    funext y
    show V c (Pipeline.arrRef spec1 3) (((cfg1.win 3).blk t).view.emb y) = V c (Pipeline.arrRef spec1 3) y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have w4 : iblk1 V c 4 t = V c (Pipeline.arrRef spec1 4) := by
    funext y
    show V c (Pipeline.arrRef spec1 4) (((cfg1.win 4).blk t).view.emb y) = V c (Pipeline.arrRef spec1 4) y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [w2, w3, w4]
  funext j
  show k1_pay1 (iblk1 V c 0 t) (iblk1 V c 1 t) (V c (Pipeline.arrRef spec1 2)) (V c (Pipeline.arrRef spec1 3))
      (V c (Pipeline.arrRef spec1 4)) j = result V c (((cfg1.win 5).blk t).view.emb j)
  unfold result
  refine tile_entry (iblk1 V c 0 t) (iblk1 V c 1 t) (V c (Pipeline.arrRef spec1 2)) (V c (Pipeline.arrRef spec1 3))
    (V c (Pipeline.arrRef spec1 4)) (V c (Pipeline.arrRef spec1 0)) (V c (Pipeline.arrRef spec1 1)) j
    (((cfg1.win 5).blk t).view.emb j) ?_ ?_ ?_
  · intro k
    show V c (Pipeline.arrRef spec1 0) (((cfg1.win 0).blk t).view.emb (ix2 (j 0 : Fin 5000) k))
      = V c (Pipeline.arrRef spec1 0) (ix2 ((((cfg1.win 5).blk t).view.emb j) 0 : Fin 50000) k)
    refine congrArg _ (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ => show win1_0.index t (1 : Fin 2) * 128 + 1 * k.val = k.val; omega
  · intro k
    show V c (Pipeline.arrRef spec1 1) (((cfg1.win 1).blk t).view.emb (ix2 (j 0 : Fin 5000) k))
      = V c (Pipeline.arrRef spec1 1) (ix2 ((((cfg1.win 5).blk t).view.emb j) 0 : Fin 50000) k)
    refine congrArg _ (funext fun a => Fin.ext ?_)
    match a with
    | ⟨0, _⟩ =>
      show win1_1.index t (0 : Fin 2) * 5000 + 1 * (j 0).val = win1_5.index t (0 : Fin 2) * 5000 + 1 * (j 0).val
      omega
    | ⟨1, _⟩ => show win1_1.index t (1 : Fin 2) * 128 + 1 * k.val = k.val; omega
  · refine Fin.ext ?_
    show (j 1).val = win1_5.index t (1 : Fin 2) * 128 + 1 * (j 1).val
    omega

/-- An index of the output array is in point t's tile iff each coordinate is in the tile's range on its axis. -/
theorem mem_tile (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v39).slice (win1_5.rect t)).set ↔ _
  rw [View.set_slice_whole, Rect.mem_set_unit]
  exact Iff.rfl

/-- Every index of the output array is in the tile of the point its row falls in. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨a0, a1, b0, b1, c0, c1, d0, d1, f0, f1, g0, g1⟩ := index_facts t
  have ht : t.val = (i 0).val / 5000 := rfl
  refine ⟨t, flush1_5 t, ?_⟩
  rw [mem_tile]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE OUTPUT ARRAY after the launch is the layer of the arrays the launch found. -/
theorem final (c : Dev nD) : (dat1 V c).arrAt 5 cfg1.N = result V c :=
  (dat1 V c).arrAt_eq_of_cover 5 (result V c) (fun t _ => flushed_eq V c t) covered

end Cert.KernelIdeal.Layer1

end
-- ==== Proof.Layer2.lean ====
/-
  The last layer's launch: what its output array holds when the launch is over.

  The launch cuts the 50000 rows into ten tiles of 5000. At tile t the body reads rows 5000·t … 5000·t + 4999 of the node
  features and of the averaged neighbour features, the two whole weight matrices and the whole bias row, and writes the
  tile's rows of the output: entry (p, q) of the tile is the layer's entry (5000·t + p, q), because an entry of the layer
  depends on its own row of the two feature arrays only. The ten tiles cover every row, so the output array ends as the
  layer of the arrays the launch found, whatever those are.
-/
import proofs.«120581_j43671227466151_1_alg».proof.Proof.Gen.KernelIdeal.Frame
import proofs.«120581_j43671227466151_1_alg».proof.Proof.DenseEntry
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.SageDense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The launch's products contract the left operand's columns with the right operand's rows. -/
theorem dims_plain :
    (dot_S5000x128_S128x64_S5000x64_1_0_0_1_n_n : DotDims S5000x128 S128x64 S5000x64) = DotDims.plain 5000 128 64 := rfl

/-- The body's stored value at entry (p, q) of a tile: the layer's formula on the tile's operands. -/
theorem stored_apply (x0 x1 : Vec Ideal S5000x128 .f32) (x2 x3 : Vec Ideal S128x64 .f32) (x4 : Vec Ideal S1x64 .f32)
    (p : Fin 5000) (q : Fin 64) :
    k2_pay1 x0 x1 x2 x3 x4 (ix2 p q) = affineAt x0 x1 x2 x3 x4 p q := by
  unfold k2_pay1
  rw [shapeCast_self x0, shapeCast_self x1]
  exact unit_affine_apply dot_S5000x128_S128x64_S5000x64_1_0_0_1_n_n dims_plain _ _ _ x0 x1 x2 x3 x4 p q

/-- The layer of the arrays the launch finds. -/
def result (c : Dev nD) : FVec Ideal S50000x64 .f32 :=
  layer false (V c (Pipeline.arrRef spec2 0) : S50000x128.Idx → Ideal .f32) (V c (Pipeline.arrRef spec2 1))
    (V c (Pipeline.arrRef spec2 2)) (V c (Pipeline.arrRef spec2 3)) (V c (Pipeline.arrRef spec2 4))

/-- The printed index maps over the grid: the row tiles move with the point, the weights and the bias stay. -/
theorem index_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A tile's entry is the layer's entry at the tile's place in the arrays. -/
theorem tile_entry (x0 x1 : Vec Ideal S5000x128 .f32) (x2 x3 : Vec Ideal S128x64 .f32) (x4 : Vec Ideal S1x64 .f32)
    (a0 a1 : FVec Ideal S50000x128 .f32) (j : S5000x64.Idx) (i : S50000x64.Idx)
    (e0 : ∀ k : Fin 128, x0 (ix2 (j 0 : Fin 5000) k) = a0 (ix2 (i 0 : Fin 50000) k))
    (e1 : ∀ k : Fin 128, x1 (ix2 (j 0 : Fin 5000) k) = a1 (ix2 (i 0 : Fin 50000) k))
    (eq : (j 1 : Fin 64) = (i 1 : Fin 64)) :
    k2_pay1 x0 x1 x2 x3 x4 j = layer false a0 a1 x2 x3 x4 i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  have hq : q = s := eq
  subst hq
  rw [stored_apply, layer_apply]
  exact affineAt_tile x0 x1 a0 a1 x2 x3 x4 p r q e0 e1

set_option maxHeartbeats 2000000 in
/-- WHAT POINT t WRITES BACK is tile t of the layer of the arrays the launch finds. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x64) origin,
    View.ld_unit_zero (S := S1x64) origin]
  obtain ⟨a0, a1, b0, b1, c0, c1, d0, d1, f0, f1, g0, g1⟩ := index_facts t
  have w2 : iblk2 V c 2 t = V c (Pipeline.arrRef spec2 2) := by
    funext y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 64 + 1 * (y 1).val = (y 1).val; omega
  have w3 : iblk2 V c 3 t = V c (Pipeline.arrRef spec2 3) := by
    funext y
    show V c (Pipeline.arrRef spec2 3) (((cfg2.win 3).blk t).view.emb y) = V c (Pipeline.arrRef spec2 3) y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 64 + 1 * (y 1).val = (y 1).val; omega
  have w4 : iblk2 V c 4 t = V c (Pipeline.arrRef spec2 4) := by
    funext y
    show V c (Pipeline.arrRef spec2 4) (((cfg2.win 4).blk t).view.emb y) = V c (Pipeline.arrRef spec2 4) y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 64 + 1 * (y 1).val = (y 1).val; omega
  rw [w2, w3, w4]
  funext j
  show k2_pay1 (iblk2 V c 0 t) (iblk2 V c 1 t) (V c (Pipeline.arrRef spec2 2)) (V c (Pipeline.arrRef spec2 3))
      (V c (Pipeline.arrRef spec2 4)) j = result V c (((cfg2.win 5).blk t).view.emb j)
  unfold result
  refine tile_entry (iblk2 V c 0 t) (iblk2 V c 1 t) (V c (Pipeline.arrRef spec2 2)) (V c (Pipeline.arrRef spec2 3))
    (V c (Pipeline.arrRef spec2 4)) (V c (Pipeline.arrRef spec2 0)) (V c (Pipeline.arrRef spec2 1)) j
    (((cfg2.win 5).blk t).view.emb j) ?_ ?_ ?_
  · intro k
    show V c (Pipeline.arrRef spec2 0) (((cfg2.win 0).blk t).view.emb (ix2 (j 0 : Fin 5000) k))
      = V c (Pipeline.arrRef spec2 0) (ix2 ((((cfg2.win 5).blk t).view.emb j) 0 : Fin 50000) k)
    refine congrArg _ (funext fun a => Fin.ext ?_)
    match a with
    | ⟨0, _⟩ =>
      show win2_0.index t (0 : Fin 2) * 5000 + 1 * (j 0).val = win2_5.index t (0 : Fin 2) * 5000 + 1 * (j 0).val
      omega
    | ⟨1, _⟩ => show win2_0.index t (1 : Fin 2) * 128 + 1 * k.val = k.val; omega
  · intro k
    show V c (Pipeline.arrRef spec2 1) (((cfg2.win 1).blk t).view.emb (ix2 (j 0 : Fin 5000) k))
      = V c (Pipeline.arrRef spec2 1) (ix2 ((((cfg2.win 5).blk t).view.emb j) 0 : Fin 50000) k)
    refine congrArg _ (funext fun a => Fin.ext ?_)
    match a with
    | ⟨0, _⟩ =>
      show win2_1.index t (0 : Fin 2) * 5000 + 1 * (j 0).val = win2_5.index t (0 : Fin 2) * 5000 + 1 * (j 0).val
      omega
    | ⟨1, _⟩ => show win2_1.index t (1 : Fin 2) * 128 + 1 * k.val = k.val; omega
  · refine Fin.ext ?_
    show (j 1).val = win2_5.index t (1 : Fin 2) * 64 + 1 * (j 1).val
    omega

/-- An index of the output array is in point t's tile iff each coordinate is in the tile's range on its axis. -/
theorem mem_tile (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v59).slice (win2_5.rect t)).set ↔ _
  rw [View.set_slice_whole, Rect.mem_set_unit]
  exact Iff.rfl

/-- Every index of the output array is in the tile of the point its row falls in. -/
theorem covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨a0, a1, b0, b1, c0, c1, d0, d1, f0, f1, g0, g1⟩ := index_facts t
  have ht : t.val = (i 0).val / 5000 := rfl
  refine ⟨t, flush2_5 t, ?_⟩
  rw [mem_tile]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- THE OUTPUT ARRAY after the launch is the layer of the arrays the launch found. -/
theorem final (c : Dev nD) : (dat2 V c).arrAt 5 cfg2.N = result V c :=
  (dat2 V c).arrAt_eq_of_cover 5 (result V c) (fun t _ => flushed_eq V c t) covered

end Cert.KernelIdeal.Layer2

end
-- ==== Proof.Net.lean ====
/-
  The network as one function of its twelve arguments.

  A layer first averages, for every node, the features of the nodes with an edge into it: the rows named by `src` are
  gathered, summed into the rows named by `dst`, and each row of sums is divided by the number of edges into the node (or
  by one for a node with none). The node's own features and that average then go through the two weight matrices, the bias is
  added, and in the two hidden layers the result is clipped below at zero. The network is three such layers, the first two
  with 128 output columns and the last with 64.

  The functions below spell those steps with the operations the reference program applies, in its order, so that the
  reference's result IS `net` of its arguments by unfolding; and each layer is read entry by entry as the one formula of
  Cert.SageDense, with the bias as a row.
-/
import proofs.«120581_j43671227466151_1_alg».proof.Proof.Gen.ReferenceIdeal.Run
import proofs.«120581_j43671227466151_1_alg».proof.Proof.DenseEntry

set_option maxRecDepth 16384

noncomputable section

namespace Cert.ReferenceIdeal.Net

open Cert.ReferenceIdeal Cert.ReferenceIdeal.Gen Idealize.ShloMosaic Idealize.ShloMosaic.TcCoe Idealize.SL.Sem
open Cert.SageDense

/-- The average of the in-neighbours' rows of `h`: rows `src` gathered (a negative row number counted from the end), summed
    into rows `dst`, each row of sums divided by the larger of one and the number of edges into it. -/
def meanAgg (h : FVec Ideal S50000x128 .f32) (src dst : IVec S800000 32) : FVec Ideal S50000x128 .f32 :=
  (Host.divf (F := Ideal) (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32)))))))

/-- A hidden layer: own features and neighbour average through the two weight matrices, plus the bias, clipped at zero. -/
def hidden (h hn : FVec Ideal S50000x128 .f32) (ws wn : FVec Ideal S128x128 .f32) (b : FVec Ideal S128 .f32) : FVec Ideal S50000x128 .f32 :=
  (maximumf (addf (addf (Host.dotGeneral (F := Ideal) dot_S50000x128_S128x128_S50000x128_1_0_0_1_n_n none h ws) (Host.dotGeneral (F := Ideal) dot_S50000x128_S128x128_S50000x128_1_0_0_1_n_n none hn wn)) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32)))

/-- The last layer: the same without the clip, 64 columns. -/
def last (h hn : FVec Ideal S50000x128 .f32) (ws wn : FVec Ideal S128x64 .f32) (b : FVec Ideal S64 .f32) : FVec Ideal S50000x64 .f32 :=
  addf (addf (Host.dotGeneral (F := Ideal) dot_S50000x128_S128x64_S50000x64_1_0_0_1_n_n none h ws) (Host.dotGeneral (F := Ideal) dot_S50000x128_S128x64_S50000x64_1_0_0_1_n_n none hn wn)) (broadcastInDim S50000x64 ![0, 1] bcast_S1x64_S50000x64_0_1 (broadcastInDim S1x64 ![1] bcast_S64_S1x64_1 b))

/-- The three layers, each fed the layer before it and that layer's neighbour average. -/
def net (a0 : FVec Ideal S50000x128 .f32) (a1 a2 : IVec S800000 32) (a3 a4 : FVec Ideal S128x128 .f32) (a5 : FVec Ideal S128 .f32)
    (a6 a7 : FVec Ideal S128x128 .f32) (a8 : FVec Ideal S128 .f32) (a9 a10 : FVec Ideal S128x64 .f32) (a11 : FVec Ideal S64 .f32) : FVec Ideal S50000x64 .f32 :=
  last (hidden (hidden a0 (meanAgg a0 a1 a2) a3 a4 a5) (meanAgg (hidden a0 (meanAgg a0 a1 a2) a3 a4 a5) a1 a2) a6 a7 a8)
    (meanAgg (hidden (hidden a0 (meanAgg a0 a1 a2) a3 a4 a5) (meanAgg (hidden a0 (meanAgg a0 a1 a2) a3 a4 a5) a1 a2) a6 a7 a8) a1 a2)
    a9 a10 a11

/-- The reference's result is the network of its arguments: the run's term, unfolded, is the three layers' text. -/
theorem result_eq (m : (ℓ : Loc nD τ sig) → Buf (Elt Ideal) ℓ) (c : Dev nD) :
    Cert.ReferenceIdeal.Value.res_main_v73 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v73 net last hidden meanAgg
  rfl

/-- The reference's products contract the left operand's columns with the right operand's rows. -/
theorem dims128 : (dot_S50000x128_S128x128_S50000x128_1_0_0_1_n_n : DotDims S50000x128 S128x128 S50000x128)
    = DotDims.plain 50000 128 128 := rfl
theorem dims64 : (dot_S50000x128_S128x64_S50000x64_1_0_0_1_n_n : DotDims S50000x128 S128x64 S50000x64)
    = DotDims.plain 50000 128 64 := rfl

/-- A hidden layer, entry by entry: the layer's formula with the bias reshaped to a row, clipped at zero. -/
theorem hidden_eq (h hn : FVec Ideal S50000x128 .f32) (ws wn : FVec Ideal S128x128 .f32) (b : FVec Ideal S128 .f32)
    (hc : S128.ShapeCasts S1x128) :
    hidden h hn ws wn b = layer true (h : S50000x128.Idx → Ideal .f32) hn ws wn (shapeCast S1x128 b hc) := by
  unfold hidden
  rw [row_forms b hc bcast_S128_S1x128_1]
  exact host_layer_relu dot_S50000x128_S128x128_S50000x128_1_0_0_1_n_n dims128 bcast_S1x128_S50000x128_0_1
    bcast_S_S50000x128 h hn ws wn _

/-- The last layer, entry by entry: the layer's formula with the bias reshaped to a row, not clipped. -/
theorem last_eq (h hn : FVec Ideal S50000x128 .f32) (ws wn : FVec Ideal S128x64 .f32) (b : FVec Ideal S64 .f32)
    (hc : S64.ShapeCasts S1x64) :
    last h hn ws wn b = layer false (h : S50000x128.Idx → Ideal .f32) hn ws wn (shapeCast S1x64 b hc) := by
  unfold last
  rw [row_forms b hc bcast_S64_S1x64_1]
  exact host_layer_plain dot_S50000x128_S128x64_S50000x64_1_0_0_1_n_n dims64 bcast_S1x64_S50000x64_0_1 h hn ws wn _

end Cert.ReferenceIdeal.Net

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.Chain.lean ====
/-
  The result buffer read back through the program.

  Between launches the host computes, from the features a launch is about to read, the average of every node's in-neighbours
  and reshapes the layer's bias to a row; nothing else a launch reads is touched, and a launch changes its own output array
  only. So the first launch finds the node features, their neighbour average, the first layer's weights and bias, and leaves
  the first hidden layer; the second finds that layer, ITS neighbour average and the second layer's weights and bias; the
  third likewise, and what it leaves in the result buffer is the network of the twelve arguments.
-/
import proofs.«120581_j43671227466151_1_alg».proof.Proof.Layer0
import proofs.«120581_j43671227466151_1_alg».proof.Proof.Layer1
import proofs.«120581_j43671227466151_1_alg».proof.Proof.Layer2
import proofs.«120581_j43671227466151_1_alg».proof.Proof.Net
import proofs.«120581_j43671227466151_1_alg».proof.Proof.LibOutlined
import Idealize.ShloMosaic.Lib.StableHlo.Run

set_option maxRecDepth 16384

noncomputable section

namespace Cert.KernelIdeal.Chain

open Cert.KernelIdeal Cert.KernelIdeal.Gen Cert.SageDense
open Idealize.ShloMosaic Idealize.ShloMosaic.TcCoe Idealize.ShloMosaic.StableHlo Idealize.SL.Sem

/-- The neighbour average as this program's host operations spell it. -/
def agg (h : FVec Ideal S50000x128 .f32) (src dst : IVec S800000 32) : FVec Ideal S50000x128 .f32 :=
  (Host.divf (F := Ideal) (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32)))))))

/-- It is the reference's: the same operations on the same dimension records. -/
theorem agg_eq (h : FVec Ideal S50000x128 .f32) (src dst : IVec S800000 32) :
    agg h src dst = Cert.ReferenceIdeal.Net.meanAgg h src dst := rfl

/-! ## The clip of the edge counts is an outlined function

Its three operations carry each value to its buffer's own type and back. Between operations the two transports cancel;
at the function's result and at its two inputs one transport is left, and at a literal buffer it is the identity. -/

theorem toBuf_v14 (p1 : (main_v14 : Ref sig .tc).ty = ⟨S50000, .f32⟩) (p2 : (main_v14 : Ref sig .tc).space ≠ .host)
    (p3 : (main_v14 : Ref sig .tc).isScoped = false) (v : FVec Ideal S50000 .f32) :
    (TRef.of (sig := sig) (T := ⟨S50000, .f32⟩) main_v14 p1 p2 p3).toBuf (Val := Elt Ideal) v = v := rfl
theorem ofBuf_v13 (p1 : (main_v13 : Ref sig .tc).ty = ⟨S50000, .f32⟩) (p2 : (main_v13 : Ref sig .tc).space ≠ .host)
    (p3 : (main_v13 : Ref sig .tc).isScoped = false) (u : FVec Ideal S50000 .f32) :
    (TRef.of (sig := sig) (T := ⟨S50000, .f32⟩) main_v13 p1 p2 p3).ofBuf (Val := Elt Ideal) u = u := rfl
theorem ofBuf_cst_3 (p1 : (main_cst_3 : Ref sig .tc).ty = ⟨S_, .f32⟩) (p2 : (main_cst_3 : Ref sig .tc).space ≠ .host)
    (p3 : (main_cst_3 : Ref sig .tc).isScoped = false) (u : FVec Ideal S_ .f32) :
    (TRef.of (sig := sig) (T := ⟨S_, .f32⟩) main_cst_3 p1 p2 p3).ofBuf (Val := Elt Ideal) u = u := rfl
theorem toBuf_v34 (p1 : (main_v34 : Ref sig .tc).ty = ⟨S50000, .f32⟩) (p2 : (main_v34 : Ref sig .tc).space ≠ .host)
    (p3 : (main_v34 : Ref sig .tc).isScoped = false) (v : FVec Ideal S50000 .f32) :
    (TRef.of (sig := sig) (T := ⟨S50000, .f32⟩) main_v34 p1 p2 p3).toBuf (Val := Elt Ideal) v = v := rfl
theorem ofBuf_v33 (p1 : (main_v33 : Ref sig .tc).ty = ⟨S50000, .f32⟩) (p2 : (main_v33 : Ref sig .tc).space ≠ .host)
    (p3 : (main_v33 : Ref sig .tc).isScoped = false) (u : FVec Ideal S50000 .f32) :
    (TRef.of (sig := sig) (T := ⟨S50000, .f32⟩) main_v33 p1 p2 p3).ofBuf (Val := Elt Ideal) u = u := rfl
theorem ofBuf_cst_9 (p1 : (main_cst_9 : Ref sig .tc).ty = ⟨S_, .f32⟩) (p2 : (main_cst_9 : Ref sig .tc).space ≠ .host)
    (p3 : (main_cst_9 : Ref sig .tc).isScoped = false) (u : FVec Ideal S_ .f32) :
    (TRef.of (sig := sig) (T := ⟨S_, .f32⟩) main_cst_9 p1 p2 p3).ofBuf (Val := Elt Ideal) u = u := rfl
theorem toBuf_v54 (p1 : (main_v54 : Ref sig .tc).ty = ⟨S50000, .f32⟩) (p2 : (main_v54 : Ref sig .tc).space ≠ .host)
    (p3 : (main_v54 : Ref sig .tc).isScoped = false) (v : FVec Ideal S50000 .f32) :
    (TRef.of (sig := sig) (T := ⟨S50000, .f32⟩) main_v54 p1 p2 p3).toBuf (Val := Elt Ideal) v = v := rfl
theorem ofBuf_v53 (p1 : (main_v53 : Ref sig .tc).ty = ⟨S50000, .f32⟩) (p2 : (main_v53 : Ref sig .tc).space ≠ .host)
    (p3 : (main_v53 : Ref sig .tc).isScoped = false) (u : FVec Ideal S50000 .f32) :
    (TRef.of (sig := sig) (T := ⟨S50000, .f32⟩) main_v53 p1 p2 p3).ofBuf (Val := Elt Ideal) u = u := rfl
theorem ofBuf_cst_15 (p1 : (main_cst_15 : Ref sig .tc).ty = ⟨S_, .f32⟩) (p2 : (main_cst_15 : Ref sig .tc).space ≠ .host)
    (p3 : (main_cst_15 : Ref sig .tc).isScoped = false) (u : FVec Ideal S_ .f32) :
    (TRef.of (sig := sig) (T := ⟨S_, .f32⟩) main_cst_15 p1 p2 p3).ofBuf (Val := Elt Ideal) u = u := rfl

variable (m : (ℓ : Loc nD τ sig) → Buf (Elt Ideal) ℓ) (ρ : Dev nD → PrngReg) (c : Dev nD)

/-! ## Before the first launch: from the launch memory -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl
theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  dsimp only [hostOps0, hostOps0_1, hostOps0_2]
  after_results_simp <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp <;> rfl
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp <;> rfl
theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0, hostOps0_1, hostOps0_2]
  after_results_simp <;> rfl
theorem W3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  dsimp only [hostOps0, hostOps0_1, hostOps0_2]
  after_results_simp <;> rfl
theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  dsimp only [hostOps0, hostOps0_1, hostOps0_2]
  after_results_simp <;> rfl
theorem W3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  dsimp only [hostOps0, hostOps0_1, hostOps0_2]
  after_results_simp <;> rfl
theorem W3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  dsimp only [hostOps0, hostOps0_1, hostOps0_2]
  after_results_simp <;> rfl
theorem W3_v17 : W3 m ρ c (Proc.devRef .tc main_v17) = agg (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v17) = _
  dsimp only [hostOps0, hostOps0_1, hostOps0_2]
  after_results_simp
  simp only [Cert.Lib.Outlined.ofBuf_toBuf, toBuf_v14, ofBuf_v13, ofBuf_cst_3]
  rfl
theorem W3_v18 : W3 m ρ c (Proc.devRef .tc main_v18) = shapeCast S1x128 (m ((c : Thread nD τ).loc main_arg5)) shapeCasts_S128_S1x128 := by
  show StableHlo.after hostOps0_2 (StableHlo.after hostOps0_1 (StableHlo.after hostOps0 (W0 m ρ c))) (Proc.devRef .tc main_v18) = _
  dsimp only [hostOps0, hostOps0_1, hostOps0_2]
  after_results_simp <;> rfl

/-! ## The first launch changes its output array only -/

theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)

/-! ## Before the second launch -/

theorem W7_v19 : W7 m ρ c (Proc.devRef .tc main_v19) = W4 m ρ c (Proc.devRef .tc main_v19) := by
  show StableHlo.after hostOps1_2 (StableHlo.after hostOps1_1 (StableHlo.after hostOps1 (W4 m ρ c))) (Proc.devRef .tc main_v19) = _
  dsimp only [hostOps1, hostOps1_1, hostOps1_2]
  after_results_simp <;> rfl
theorem W7_arg1 : W7 m ρ c (Proc.devRef .tc main_arg1) = W4 m ρ c (Proc.devRef .tc main_arg1) := by
  show StableHlo.after hostOps1_2 (StableHlo.after hostOps1_1 (StableHlo.after hostOps1 (W4 m ρ c))) (Proc.devRef .tc main_arg1) = _
  dsimp only [hostOps1, hostOps1_1, hostOps1_2]
  after_results_simp <;> rfl
theorem W7_arg2 : W7 m ρ c (Proc.devRef .tc main_arg2) = W4 m ρ c (Proc.devRef .tc main_arg2) := by
  show StableHlo.after hostOps1_2 (StableHlo.after hostOps1_1 (StableHlo.after hostOps1 (W4 m ρ c))) (Proc.devRef .tc main_arg2) = _
  dsimp only [hostOps1, hostOps1_1, hostOps1_2]
  after_results_simp <;> rfl
theorem W7_arg6 : W7 m ρ c (Proc.devRef .tc main_arg6) = W4 m ρ c (Proc.devRef .tc main_arg6) := by
  show StableHlo.after hostOps1_2 (StableHlo.after hostOps1_1 (StableHlo.after hostOps1 (W4 m ρ c))) (Proc.devRef .tc main_arg6) = _
  dsimp only [hostOps1, hostOps1_1, hostOps1_2]
  after_results_simp <;> rfl
theorem W7_arg7 : W7 m ρ c (Proc.devRef .tc main_arg7) = W4 m ρ c (Proc.devRef .tc main_arg7) := by
  show StableHlo.after hostOps1_2 (StableHlo.after hostOps1_1 (StableHlo.after hostOps1 (W4 m ρ c))) (Proc.devRef .tc main_arg7) = _
  dsimp only [hostOps1, hostOps1_1, hostOps1_2]
  after_results_simp <;> rfl
theorem W7_arg9 : W7 m ρ c (Proc.devRef .tc main_arg9) = W4 m ρ c (Proc.devRef .tc main_arg9) := by
  show StableHlo.after hostOps1_2 (StableHlo.after hostOps1_1 (StableHlo.after hostOps1 (W4 m ρ c))) (Proc.devRef .tc main_arg9) = _
  dsimp only [hostOps1, hostOps1_1, hostOps1_2]
  after_results_simp <;> rfl
theorem W7_arg10 : W7 m ρ c (Proc.devRef .tc main_arg10) = W4 m ρ c (Proc.devRef .tc main_arg10) := by
  show StableHlo.after hostOps1_2 (StableHlo.after hostOps1_1 (StableHlo.after hostOps1 (W4 m ρ c))) (Proc.devRef .tc main_arg10) = _
  dsimp only [hostOps1, hostOps1_1, hostOps1_2]
  after_results_simp <;> rfl
theorem W7_arg11 : W7 m ρ c (Proc.devRef .tc main_arg11) = W4 m ρ c (Proc.devRef .tc main_arg11) := by
  show StableHlo.after hostOps1_2 (StableHlo.after hostOps1_1 (StableHlo.after hostOps1 (W4 m ρ c))) (Proc.devRef .tc main_arg11) = _
  dsimp only [hostOps1, hostOps1_1, hostOps1_2]
  after_results_simp <;> rfl
theorem W7_v37 : W7 m ρ c (Proc.devRef .tc main_v37) = agg (W4 m ρ c (Proc.devRef .tc main_v19)) (W4 m ρ c (Proc.devRef .tc main_arg1)) (W4 m ρ c (Proc.devRef .tc main_arg2)) := by
  show StableHlo.after hostOps1_2 (StableHlo.after hostOps1_1 (StableHlo.after hostOps1 (W4 m ρ c))) (Proc.devRef .tc main_v37) = _
  dsimp only [hostOps1, hostOps1_1, hostOps1_2]
  after_results_simp
  simp only [Cert.Lib.Outlined.ofBuf_toBuf, toBuf_v34, ofBuf_v33, ofBuf_cst_9]
  rfl
theorem W7_v38 : W7 m ρ c (Proc.devRef .tc main_v38) = shapeCast S1x128 (W4 m ρ c (Proc.devRef .tc main_arg8)) shapeCasts_S128_S1x128 := by
  show StableHlo.after hostOps1_2 (StableHlo.after hostOps1_1 (StableHlo.after hostOps1 (W4 m ρ c))) (Proc.devRef .tc main_v38) = _
  dsimp only [hostOps1, hostOps1_1, hostOps1_2]
  after_results_simp <;> rfl

/-! ## The second launch changes its output array only -/

theorem W8_arg1 : W8 m ρ c (Proc.devRef .tc main_arg1) = m ((c : Thread nD τ).loc main_arg1) :=
  (W8_of_ne m ρ c main_arg1 (by decide)).trans ((W7_arg1 m ρ c).trans (W4_arg1 m ρ c))
theorem W8_arg2 : W8 m ρ c (Proc.devRef .tc main_arg2) = m ((c : Thread nD τ).loc main_arg2) :=
  (W8_of_ne m ρ c main_arg2 (by decide)).trans ((W7_arg2 m ρ c).trans (W4_arg2 m ρ c))
theorem W8_arg9 : W8 m ρ c (Proc.devRef .tc main_arg9) = m ((c : Thread nD τ).loc main_arg9) :=
  (W8_of_ne m ρ c main_arg9 (by decide)).trans ((W7_arg9 m ρ c).trans (W4_arg9 m ρ c))
theorem W8_arg10 : W8 m ρ c (Proc.devRef .tc main_arg10) = m ((c : Thread nD τ).loc main_arg10) :=
  (W8_of_ne m ρ c main_arg10 (by decide)).trans ((W7_arg10 m ρ c).trans (W4_arg10 m ρ c))
theorem W8_arg11 : W8 m ρ c (Proc.devRef .tc main_arg11) = m ((c : Thread nD τ).loc main_arg11) :=
  (W8_of_ne m ρ c main_arg11 (by decide)).trans ((W7_arg11 m ρ c).trans (W4_arg11 m ρ c))

/-! ## Before the third launch -/

theorem W11_v39 : W11 m ρ c (Proc.devRef .tc main_v39) = W8 m ρ c (Proc.devRef .tc main_v39) := by
  show StableHlo.after hostOps2_2 (StableHlo.after hostOps2_1 (StableHlo.after hostOps2 (W8 m ρ c))) (Proc.devRef .tc main_v39) = _
  dsimp only [hostOps2, hostOps2_1, hostOps2_2]
  after_results_simp <;> rfl
theorem W11_arg9 : W11 m ρ c (Proc.devRef .tc main_arg9) = W8 m ρ c (Proc.devRef .tc main_arg9) := by
  show StableHlo.after hostOps2_2 (StableHlo.after hostOps2_1 (StableHlo.after hostOps2 (W8 m ρ c))) (Proc.devRef .tc main_arg9) = _
  dsimp only [hostOps2, hostOps2_1, hostOps2_2]
  after_results_simp <;> rfl
theorem W11_arg10 : W11 m ρ c (Proc.devRef .tc main_arg10) = W8 m ρ c (Proc.devRef .tc main_arg10) := by
  show StableHlo.after hostOps2_2 (StableHlo.after hostOps2_1 (StableHlo.after hostOps2 (W8 m ρ c))) (Proc.devRef .tc main_arg10) = _
  dsimp only [hostOps2, hostOps2_1, hostOps2_2]
  after_results_simp <;> rfl
theorem W11_v57 : W11 m ρ c (Proc.devRef .tc main_v57) = agg (W8 m ρ c (Proc.devRef .tc main_v39)) (W8 m ρ c (Proc.devRef .tc main_arg1)) (W8 m ρ c (Proc.devRef .tc main_arg2)) := by
  show StableHlo.after hostOps2_2 (StableHlo.after hostOps2_1 (StableHlo.after hostOps2 (W8 m ρ c))) (Proc.devRef .tc main_v57) = _
  dsimp only [hostOps2, hostOps2_1, hostOps2_2]
  after_results_simp
  simp only [Cert.Lib.Outlined.ofBuf_toBuf, toBuf_v54, ofBuf_v53, ofBuf_cst_15]
  rfl
theorem W11_v58 : W11 m ρ c (Proc.devRef .tc main_v58) = shapeCast S1x64 (W8 m ρ c (Proc.devRef .tc main_arg11)) shapeCasts_S64_S1x64 := by
  show StableHlo.after hostOps2_2 (StableHlo.after hostOps2_1 (StableHlo.after hostOps2 (W8 m ρ c))) (Proc.devRef .tc main_v58) = _
  dsimp only [hostOps2, hostOps2_1, hostOps2_2]
  after_results_simp <;> rfl

/-! ## The three layers -/

open Cert.ReferenceIdeal.Net (meanAgg hidden last net)

/-- The first hidden layer, of the arguments. -/
abbrev h1 : FVec Ideal S50000x128 .f32 := hidden (m ((c : Thread nD τ).loc main_arg0)) (meanAgg (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))
/-- The second hidden layer, of the first. -/
abbrev h2 : FVec Ideal S50000x128 .f32 := hidden (h1 m c) (meanAgg (h1 m c) (m ((c : Thread nD τ).loc main_arg1)) (m ((c : Thread nD τ).loc main_arg2))) (m ((c : Thread nD τ).loc main_arg6)) (m ((c : Thread nD τ).loc main_arg7)) (m ((c : Thread nD τ).loc main_arg8))

/-- After the first launch its output array holds the first hidden layer. -/
theorem out0 : W4 m ρ c (Proc.devRef .tc main_v19) = h1 m c := by
  refine (W4_arr m ρ c 5).trans ((Layer0.final (V3 m ρ) c).trans ?_)
  unfold Layer0.result
  show layer true (W3 m ρ c (Proc.devRef .tc main_arg0) : S50000x128.Idx → Ideal .f32) (W3 m ρ c (Proc.devRef .tc main_v17))
    (W3 m ρ c (Proc.devRef .tc main_arg3)) (W3 m ρ c (Proc.devRef .tc main_arg4)) (W3 m ρ c (Proc.devRef .tc main_v18)) = _
  rw [W3_arg0, W3_v17, W3_arg3, W3_arg4, W3_v18, agg_eq]
  exact (Cert.ReferenceIdeal.Net.hidden_eq _ _ _ _ _ _).symm

/-- After the second launch its output array holds the second hidden layer. -/
theorem out1 : W8 m ρ c (Proc.devRef .tc main_v39) = h2 m c := by
  refine (W8_arr m ρ c 5).trans ((Layer1.final (V7 m ρ) c).trans ?_)
  unfold Layer1.result
  show layer true (W7 m ρ c (Proc.devRef .tc main_v19) : S50000x128.Idx → Ideal .f32) (W7 m ρ c (Proc.devRef .tc main_v37))
    (W7 m ρ c (Proc.devRef .tc main_arg6)) (W7 m ρ c (Proc.devRef .tc main_arg7)) (W7 m ρ c (Proc.devRef .tc main_v38)) = _
  rw [W7_v19, W7_v37, W7_arg6, W7_arg7, W7_v38, W4_arg1, W4_arg2, W4_arg6, W4_arg7, W4_arg8, out0, agg_eq]
  exact (Cert.ReferenceIdeal.Net.hidden_eq _ _ _ _ _ _).symm

/-- AFTER THE THIRD LAUNCH the result buffer holds the network of the arguments. -/
theorem out2 : W12 m ρ c (Proc.devRef .tc main_v59)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ((Layer2.final (V11 m ρ) c).trans ?_)
  unfold Layer2.result
  show layer false (W11 m ρ c (Proc.devRef .tc main_v39) : S50000x128.Idx → Ideal .f32) (W11 m ρ c (Proc.devRef .tc main_v57))
    (W11 m ρ c (Proc.devRef .tc main_arg9)) (W11 m ρ c (Proc.devRef .tc main_arg10)) (W11 m ρ c (Proc.devRef .tc main_v58)) = _
  rw [W11_v39, W11_v57, W11_arg9, W11_arg10, W11_v58, W8_arg1, W8_arg2, W8_arg9, W8_arg10, W8_arg11, out1, agg_eq]
  exact (Cert.ReferenceIdeal.Net.last_eq _ _ _ _ _ _).symm

end Cert.KernelIdeal.Chain

end
-- ==== Proof.lean ====
/-
  A three-layer graph network: a kernel that runs each layer's dense part tile by tile on the matrix unit, against a
  reference that applies whole-array matrix products.

  Both programs compute, for every layer, the average of each node's in-neighbours with the same host operations (a gather
  of rows, two scatter-adds, a clip of the edge counts below at one and a division). They differ in the dense part only: the
  kernel cuts the 50000 rows into ten tiles, rounds the operands to a narrower float format and multiplies them on the matrix
  unit into zero accumulators; the reference multiplies the whole arrays. Over the extended reals a change of format is the
  identity and both products are the exact sum over the contracted axis, so each entry of a layer is, on both sides,

      (∑ k, h[r, k] · Wself[k, q]) + (∑ k, hn[r, k] · Wneigh[k, q]) + b[q]      (clipped below at zero in the hidden layers)

  — the same sums of the same products added in the same order, which is why the precondition (finite inputs) is never
  opened. The modules: Proof/DenseEntry (the layer's formula and its two spellings), Proof/Layer0 … Layer2 (a launch's output
  array is the layer of the arrays the launch finds: its tiles cover the rows), Proof/KernelRun (the kernel's run with the
  result buffer named), Proof/Chain (the result buffer read back through the launches to the arguments), Proof/Net (the
  reference's result as the same function of the arguments).
-/
import proofs.«120581_j43671227466151_1_alg».proof.Defs
import proofs.«120581_j43671227466151_1_alg».proof.Proof.Gen.Kernel
import proofs.«120581_j43671227466151_1_alg».proof.Proof.Gen.Kernel.Skeleton
import proofs.«120581_j43671227466151_1_alg».proof.Proof.Gen.Kernel.Launch
import proofs.«120581_j43671227466151_1_alg».proof.Proof.Gen.Kernel.Points
import proofs.«120581_j43671227466151_1_alg».proof.Proof.Gen.Kernel.Frame
import proofs.«120581_j43671227466151_1_alg».proof.Proof.Gen.KernelIdeal
import proofs.«120581_j43671227466151_1_alg».proof.Proof.Gen.KernelIdeal.Skeleton
import proofs.«120581_j43671227466151_1_alg».proof.Proof.Gen.KernelIdeal.Launch
import proofs.«120581_j43671227466151_1_alg».proof.Proof.Gen.KernelIdeal.Points
import proofs.«120581_j43671227466151_1_alg».proof.Proof.Gen.KernelIdeal.Frame
import proofs.«120581_j43671227466151_1_alg».proof.Proof.Gen.ReferenceIdeal
import proofs.«120581_j43671227466151_1_alg».proof.Proof.Gen.Pre_finite_inputs
import proofs.«120581_j43671227466151_1_alg».proof.Proof.Gen.ReferenceIdeal.Run
import proofs.«120581_j43671227466151_1_alg».proof.Proof.KernelRun
import proofs.«120581_j43671227466151_1_alg».proof.Proof.Chain
import proofs.«120581_j43671227466151_1_alg».proof.Proof.Net
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote nothing that needs a justification. -/
theorem preserves : Cert.preserves_Kernel_KernelIdeal := trivial

/-- From memories that agree on the twelve arguments both programs end, and both results are the network of those
    arguments: the kernel's by reading its result buffer back through the three launches, the reference's by unfolding
    its run. -/
theorem algebraic : Cert.algebraic_KernelIdeal_ReferenceIdeal := by
  intro m ρ m' ρ' _ hagree
  refine ⟨fun c => Cert.ReferenceIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.out2 m ρ c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Net.result_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
